-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S65536x64 : S_.BroadcastsInDim S65536x64 (![] : Fin 0 → Fin S65536x64.rank)
  reducesTo_S65536x64_S_d0_1 : S65536x64.ReducesTo [0, 1] S_

variable [Facts]

def fn_part1 {F : FTy → Type} [FloatOps F] (main_v13 : IVec S_ 1) (main_v16 : IVec S65536x64 1) : IVec S_ 1 :=
  let main_c_5 : IVec S_ 1 := constantI S_ 1 1#1
  let main_v17 : IVec S_ 1 := (fun x v => Host.reduce IntOp.andi x v reducesTo_S65536x64_S_d0_1 h_S_) main_v16 main_c_5
  let main_v18 : IVec S_ 1 := andi main_v13 main_v17
  main_v18

def fn {F : FTy → Type} [FloatOps F] (main_arg0 : FVec F S1x2048x2048 .f32) (main_arg1 : FVec F S65536x2048 .f32) (main_arg2 : FVec F S64x2048 .f32) (main_arg3 : FVec F S65536x64 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S65536x64 .f32 := Host.absf main_arg3
  let main_cst_4 : FVec F S_ .f32 := constant S_ .f32 0x7F800000#32
  let main_v15 : FVec F S65536x64 .f32 := broadcastInDim S65536x64 ![] bcast_S_S65536x64 main_cst_4
  let main_v16 : IVec S65536x64 1 := cmpf .olt main_v14 main_v15
  fn_part1 (F := F) main_v13 main_v16
-- ==== Kernel.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S2048x2048 : Shape := ⟨2, ![2048, 2048]⟩
abbrev S2048x64 : Shape := ⟨2, ![2048, 64]⟩
abbrev S64x65536 : Shape := ⟨2, ![64, 65536]⟩
abbrev S2048x65536 : Shape := ⟨2, ![2048, 65536]⟩
abbrev S1024x2048 : Shape := ⟨2, ![1024, 2048]⟩
abbrev S64x1024 : Shape := ⟨2, ![64, 1024]⟩
abbrev S256x1024 : Shape := ⟨2, ![256, 1024]⟩
abbrev S256x2048 : Shape := ⟨2, ![256, 2048]⟩
abbrev S256x64 : Shape := ⟨2, ![256, 64]⟩
abbrev S1x2048x65536 : Shape := ⟨3, ![1, 2048, 65536]⟩

abbrev nBuf : Space → Nat
  | .hbm => 11
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S65536x2048, .f32⟩
  | .hbm, ⟨2, _⟩ => ⟨S64x2048, .f32⟩
  | .hbm, ⟨3, _⟩ => ⟨S65536x64, .f32⟩
  | .hbm, ⟨4, _⟩ => ⟨S2048x2048, .f32⟩
  | .hbm, ⟨5, _⟩ => ⟨S2048x2048, .bf16⟩
  | .hbm, ⟨6, _⟩ => ⟨S2048x64, .f32⟩
  | .hbm, ⟨7, _⟩ => ⟨S2048x64, .bf16⟩
  | .hbm, ⟨8, _⟩ => ⟨S64x65536, .f32⟩
  | .hbm, ⟨9, _⟩ => ⟨S2048x65536, .f32⟩
  | .hbm, ⟨10, _⟩ => ⟨S1x2048x65536, .f32⟩
  | .local _ .vmem, ⟨0, _⟩ => ⟨S2048x2048, .bf16⟩
  | .local _ .vmem, ⟨1, _⟩ => ⟨S1024x2048, .f32⟩
  | .local _ .vmem, ⟨2, _⟩ => ⟨S1024x2048, .f32⟩
  | .local _ .vmem, ⟨3, _⟩ => ⟨S2048x64, .bf16⟩
  | .local _ .vmem, ⟨4, _⟩ => ⟨S64x1024, .f32⟩
  | .local _ .vmem, ⟨5, _⟩ => ⟨S64x1024, .f32⟩
  | .local _ .vmem, ⟨6, _⟩ => ⟨S256x1024, .f32⟩
  | .local _ .vmem, ⟨7, _⟩ => ⟨S256x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0 : Index := 0#32
  ![v2.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v5 : Index := Scalar.indexCast v1
  let c0_0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x2048x2048_S2048x2048 : S1x2048x2048.ShapeCasts S2048x2048
  bitsLt_bf16_f32 : FTy.bits .bf16 < FTy.bits .f32
  transposes_S65536x64_S64x65536_1_0 : S65536x64.Transposes [1, 0] S64x65536
  h_S256x2048 : 0 < S256x2048.numel
  shapeCasts_S256x2048_S256x2048 : S256x2048.ShapeCasts S256x2048
  h_S256x64 : 0 < S256x64.numel
  shapeCasts_S256x64_S256x64 : S256x64.ShapeCasts S256x64
  inb_S1024x2048_S1024x2048_0_0 : ∀ a, (![0, 0] : Fin 2 → Nat) a + S1024x2048.size a ≤ S1024x2048.size a
  h_S1024x2048 : 0 < S1024x2048.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S256x1024_S256x1024_0_0 : ∀ a, (![0, 0] : Fin 2 → Nat) a + S256x1024.size a ≤ S256x1024.size a
  h_S256x1024 : 0 < S256x1024.numel
  shapeCasts_S2048x65536_S1x2048x65536 : S2048x65536.ShapeCasts S1x2048x65536
  dot_S2048x2048_S64x2048_S2048x64_1_1_0_0_n_n_wf : DotDims.WF S2048x2048 S64x2048 S2048x64 [1] [1] [0] [0] [] []
  dot_S256x2048_S1024x2048_S256x1024_1_1_0_0_n_n_wf : DotDims.WF S256x2048 S1024x2048 S256x1024 [1] [1] [0] [0] [] []
  dot_S256x64_S64x1024_S256x1024_1_0_0_1_n_n_wf : DotDims.WF S256x64 S64x1024 S256x1024 [1] [0] [0] [1] [] []
  hrank0 : 0 < grid0.rank
  k0_mult1_dvd : ∀ i : grid0.Coords, 16 ∣ (k0_mult1 i).toNat
  k0_off1_inb : ∀ i : grid0.Coords, ∀ a, (k0_off1 i) a + S256x2048.size a ≤ S2048x2048.size a
  k0_off2_inb : ∀ i : grid0.Coords, ∀ a, (k0_off2 i) a + S256x64.size a ≤ S2048x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .bf16 = 32 ∨ (Rect.block (s := S2048x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x65536.size a
  hwx0_3 : ∀ i : grid0.Coords, EltTy.bits .f32 = 32 ∨ (Rect.block (s := S64x65536) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x65536.size a
  hwx0_4 : ∀ i : grid0.Coords, EltTy.bits .f32 = 32 ∨ (Rect.block (s := S2048x65536) S256x1024.size (cc0_transform_4 i) (hinb0_4 i)).WholeWords (EltTy.packing .f32)

variable [Facts₀]

def dot_S2048x2048_S64x2048_S2048x64_1_1_0_0_n_n : DotDims S2048x2048 S64x2048 S2048x64 where
  lhsContracting := [1]
  rhsContracting := [1]
  lhsNonContracting := [0]
  rhsNonContracting := [0]
  lhsBatch := []
  rhsBatch := []
  wf := dot_S2048x2048_S64x2048_S2048x64_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S65536x2048 : Shape := ⟨2, ![65536, 2048]⟩
abbrev S64x2048 : Shape := ⟨2, ![64, 2048]⟩
abbrev S65536x64 : Shape := ⟨2, ![65536, 64]⟩
abbrev S1x2048x65536 : Shape := ⟨3, ![1, 2048, 65536]⟩
abbrev S1x2048x64 : Shape := ⟨3, ![1, 2048, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S65536x2048, .f32⟩
  | .hbm, ⟨2, _⟩ => ⟨S64x2048, .f32⟩
  | .hbm, ⟨3, _⟩ => ⟨S65536x64, .f32⟩
  | .hbm, ⟨4, _⟩ => ⟨S1x2048x65536, .f32⟩
  | .hbm, ⟨5, _⟩ => ⟨S1x2048x64, .f32⟩
  | .hbm, ⟨6, _⟩ => ⟨S1x2048x65536, .f32⟩
  | .hbm, ⟨7, _⟩ => ⟨S_, .f32⟩
  | .hbm, ⟨8, _⟩ => ⟨S1x2048x65536, .f32⟩
  | .hbm, ⟨9, _⟩ => ⟨S1x2048x65536, .f32⟩
  | .hbm, ⟨10, _⟩ => ⟨S1x2048x65536, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S1x2048x65536 : S_.BroadcastsInDim S1x2048x65536 (![] : Fin 0 → Fin S1x2048x65536.rank)
  dot_S1x2048x2048_S65536x2048_S1x2048x65536_2_1_01_0_n_n_wf : DotDims.WF S1x2048x2048 S65536x2048 S1x2048x65536 [2] [1] [0, 1] [0] [] []
  dot_S1x2048x2048_S64x2048_S1x2048x64_2_1_01_0_n_n_wf : DotDims.WF S1x2048x2048 S64x2048 S1x2048x64 [2] [1] [0, 1] [0] [] []
  dot_S1x2048x64_S65536x64_S1x2048x65536_2_1_01_0_n_n_wf : DotDims.WF S1x2048x64 S65536x64 S1x2048x65536 [2] [1] [0, 1] [0] [] []

variable [Facts₀]

def dot_S1x2048x2048_S65536x2048_S1x2048x65536_2_1_01_0_n_n : DotDims S1x2048x2048 S65536x2048 S1x2048x65536 where
  lhsContracting := [2]
  rhsContracting := [1]
  lhsNonContracting := [0, 1]
  rhsNonContracting := [0]
  lhsBatch := []
  rhsBatch := []
  wf := dot_S1x2048x2048_S65536x2048_S1x2048x65536_2_1_01_0_n_n_wf
def dot_S1x2048x2048_S64x2048_S1x2048x64_2_1_01_0_n_n : DotDims S1x2048x2048 S64x2048 S1x2048x64 where
  lhsContracting := [2]
  rhsContracting := [1]
  lhsNonContracting := [0, 1]
  rhsNonContracting := [0]
  lhsBatch := []
  rhsBatch := []
  wf := dot_S1x2048x2048_S64x2048_S1x2048x64_2_1_01_0_n_n_wf
def dot_S1x2048x64_S65536x64_S1x2048x65536_2_1_01_0_n_n : DotDims S1x2048x64 S65536x64 S1x2048x65536 where
  lhsContracting := [2]
  rhsContracting := [1]
  lhsNonContracting := [0, 1]
  rhsNonContracting := [0]
  lhsBatch := []
  rhsBatch := []
  wf := dot_S1x2048x64_S65536x64_S1x2048x65536_2_1_01_0_n_n_wf

class Facts : Prop extends Facts₀ where

variable [Facts]
-- ==== Proof.Spec.lean ====
/-
  The function both programs compute, stated once over plain index functions on the extended reals.

  A low-rank-adapted linear layer: for a token row `t` and an output feature `v`,

      y[t, v] = Σ_c x[t, c] · W[v, c]  +  2 · Σ_r (Σ_c x[t, c] · A[r, c]) · B[v, r].

  `lora` states it over the arguments as they are passed (a leading batch axis of extent one on `x` and on the
  result); `loraBlockwise` states the same sum over the four arrays a tiled evaluation works on — the token
  matrix, the weight, the rank-64 projection `low = x · Aᵀ` already formed, and `B` transposed — with the
  batch axis dropped. The scale `2` is kept as the binary32 word both programs spell; it is never evaluated.
-/
import Idealize.ShloMosaic.PureOps.Ideal
import Idealize.ShloMosaic.Lib.ValueIdx

noncomputable section

open scoped BigOperators

namespace Cert.LoraSpec

open Idealize.ShloMosaic Idealize.ShloMosaic.ValueIdx

/-- The LoRA scale `alpha / rank = 128 / 64`, as the binary32 word `2.0`. -/
abbrev two : EReal := Ideal.ofBits .f32 0x40000000#32

/-- `y[0, t, v] = Σ_c x[0,t,c]·W[v,c] + 2·Σ_r (Σ_c x[0,t,c]·A[r,c])·B[v,r]`. -/
def lora (x : (⟨3, ![1, 2048, 2048]⟩ : Shape).Idx → EReal) (w : (⟨2, ![65536, 2048]⟩ : Shape).Idx → EReal)
    (a : (⟨2, ![64, 2048]⟩ : Shape).Idx → EReal) (b : (⟨2, ![65536, 64]⟩ : Shape).Idx → EReal) :
    (⟨3, ![1, 2048, 65536]⟩ : Shape).Idx → EReal :=
  fun i => (∑ k : Fin 2048, x (ix3 (i 0) (i 1) k) * w (ix2 (i 2) k))
    + two * ∑ r : Fin 64, (∑ k : Fin 2048, x (ix3 (i 0) (i 1) k) * a (ix2 r k)) * b (ix2 (i 2) r)

/-- The same sum over the token matrix `x2[t,c]`, the weight, the projection `low[t,r]` and `bT[r,v] = B[v,r]`. -/
def loraBlockwise (x2 : (⟨2, ![2048, 2048]⟩ : Shape).Idx → EReal) (w : (⟨2, ![65536, 2048]⟩ : Shape).Idx → EReal)
    (low : (⟨2, ![2048, 64]⟩ : Shape).Idx → EReal) (bT : (⟨2, ![64, 65536]⟩ : Shape).Idx → EReal) :
    (⟨2, ![2048, 65536]⟩ : Shape).Idx → EReal :=
  fun j => (∑ k : Fin 2048, x2 (ix2 (j 0) k) * w (ix2 (j 1) k))
    + two * ∑ r : Fin 64, low (ix2 (j 0) r) * bT (ix2 r (j 1))

/-- With `x2` the token matrix without its batch axis, `low` the projection `x · Aᵀ` and `bT` the transpose of
    `B`, the blockwise sum at `(t, v)` is `lora` at `(0, t, v)`: the two are the same expression, term by term. -/
theorem loraBlockwise_eq (x : (⟨3, ![1, 2048, 2048]⟩ : Shape).Idx → EReal) (w : (⟨2, ![65536, 2048]⟩ : Shape).Idx → EReal)
    (a : (⟨2, ![64, 2048]⟩ : Shape).Idx → EReal) (b : (⟨2, ![65536, 64]⟩ : Shape).Idx → EReal)
    (x2 : (⟨2, ![2048, 2048]⟩ : Shape).Idx → EReal) (low : (⟨2, ![2048, 64]⟩ : Shape).Idx → EReal)
    (bT : (⟨2, ![64, 65536]⟩ : Shape).Idx → EReal)
    (hx : ∀ (t : Fin 2048) (k : Fin 2048), x2 (ix2 t k) = x (ix3 0 t k))
    (hlow : ∀ (t : Fin 2048) (r : Fin 64), low (ix2 t r) = ∑ k : Fin 2048, x (ix3 0 t k) * a (ix2 r k))
    (hb : ∀ (r : Fin 64) (v : Fin 65536), bT (ix2 r v) = b (ix2 v r))
    (t : Fin 2048) (v : Fin 65536) :
    loraBlockwise x2 w low bT (ix2 t v) = lora x w a b (ix3 0 t v) := by
  unfold loraBlockwise lora
  show (∑ k : Fin 2048, x2 (ix2 t k) * w (ix2 v k)) + two * ∑ r : Fin 64, low (ix2 t r) * bT (ix2 r v)
    = (∑ k : Fin 2048, x (ix3 0 t k) * w (ix2 v k))
      + two * ∑ r : Fin 64, (∑ k : Fin 2048, x (ix3 0 t k) * a (ix2 r k)) * b (ix2 v r)
  simp only [hx, hlow, hb]

end Cert.LoraSpec

end
-- ==== Proof.RefSpec.lean ====
/-
  The reference computes `lora`.

  The reference is three contractions and two pointwise operations: `base[0,t,v] = Σ_c x[0,t,c]·W[v,c]`,
  `low[0,t,r] = Σ_c x[0,t,c]·A[r,c]`, `upd[0,t,v] = Σ_r low[0,t,r]·B[v,r]`, and `base + 2·upd`. Read at an index
  `i = (0, t, v)`, each contraction is a sum over its one contracted axis; the left and right operand indices are
  `(i₀, i₁, k)` and `(i₂, k)`, which is exactly how `lora` indexes its arguments.
-/
import proofs.«107733_j48421461295878_2_alg».proof.Proof.Gen.ReferenceIdeal.Read
import proofs.«107733_j48421461295878_2_alg».proof.Proof.Spec

noncomputable section

open scoped BigOperators

namespace Cert.ReferenceIdeal.RefValue

open Cert.ReferenceIdeal Cert.ReferenceIdeal.Read Idealize.ShloMosaic Idealize.ShloMosaic.ValueIdx Cert.LoraSpec

/-- `base`'s left operand index at `(i, k)` is `(i₀, i₁, k)`. -/
theorem base_lhs (i : S1x2048x65536.Idx) (k : Fin 2048) : lidx_main_v0 i k = ix3 (i 0) (i 1) k :=
  funext fun a => by match a with | ⟨0, _⟩ => rfl | ⟨1, _⟩ => rfl | ⟨2, _⟩ => rfl
/-- `base`'s right operand index at `(i, k)` is `(i₂, k)`. -/
theorem base_rhs (i : S1x2048x65536.Idx) (k : Fin 2048) : ridx_main_v0 i k = ix2 (i 2) k :=
  funext fun a => by match a with | ⟨0, _⟩ => rfl | ⟨1, _⟩ => rfl
/-- `upd`'s right operand index at `(i, r)` is `(i₂, r)`. -/
theorem upd_rhs (i : S1x2048x65536.Idx) (r : Fin 64) : ridx_main_v2 i r = ix2 (i 2) r :=
  funext fun a => by match a with | ⟨0, _⟩ => rfl | ⟨1, _⟩ => rfl
/-- `low`, read where `upd` reads it — at `(i₀, i₁, r)` —, reads `x` at `(i₀, i₁, k)` … -/
theorem low_lhs (i : S1x2048x65536.Idx) (r : Fin 64) (k : Fin 2048) :
    lidx_main_v1 (lidx_main_v2 i r) k = ix3 (i 0) (i 1) k :=
  funext fun a => by match a with | ⟨0, _⟩ => rfl | ⟨1, _⟩ => rfl | ⟨2, _⟩ => rfl
/-- … and `A` at `(r, k)`. -/
theorem low_rhs (i : S1x2048x65536.Idx) (r : Fin 64) (k : Fin 2048) :
    ridx_main_v1 (lidx_main_v2 i r) k = ix2 r k :=
  funext fun a => by match a with | ⟨0, _⟩ => rfl | ⟨1, _⟩ => rfl

/-- The reference's result, as a function of its four arguments, is `lora` of them. -/
theorem ref_eq (x0 : (⟨S1x2048x2048, .f32⟩ : BufTy).Contents (Elt Ideal)) (x1 : (⟨S65536x2048, .f32⟩ : BufTy).Contents (Elt Ideal))
    (x2 : (⟨S64x2048, .f32⟩ : BufTy).Contents (Elt Ideal)) (x3 : (⟨S65536x64, .f32⟩ : BufTy).Contents (Elt Ideal)) :
    val_main_v5 (F := Ideal) x0 x1 x2 x3 = lora x0 x1 x2 x3 := by
  funext i
  rw [val_main_v5_apply, val_main_v0_apply, val_main_v4_apply, val_main_v3_apply, val_main_cst_apply, val_main_v2_apply]
  simp only [val_main_v1_apply, base_lhs, base_rhs, upd_rhs, low_lhs, low_rhs]
  rfl

end Cert.ReferenceIdeal.RefValue

end
-- ==== Proof.Piece.lean ====
/-
  What one grid point leaves in the output's staging buffer.

  The body stores once, through the whole 256×1024 block, the value `base + 2·upd` computed from four loads: the
  256 rows of the resident token matrix that start at row `256·i₁`, the 256 rows of the resident projection `low`
  that start at the same row, and the point's whole weight and `Bᵀ` blocks. So the staging buffer ends holding that
  one payload, as a function of the four staged arrays.
-/
import proofs.«107733_j48421461295878_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

/-- The offsets `(0, 0)` are the zero offsets. -/
theorem hz : (![0, 0] : Fin 2 → Nat) = fun _ => 0 := funext fun a => by fin_cases a <;> rfl

/-- The rows of the token matrix the body reads at grid coordinates `i`: 256 rows from row `256·i₁`, every column. -/
abbrev xRows (i : grid0.Coords) (x0 : Vec F S2048x2048 .bf16) : Vec F S256x2048 .bf16 :=
  View.ld x0 (Rect.unit (s := S2048x2048) (k0_off1 i) S256x2048.size (k0_off1_inb i))

/-- The rows of the projection `low` it reads: 256 rows from the same row, all 64 columns. -/
abbrev lowRows (i : grid0.Coords) (x2 : Vec F S2048x64 .bf16) : Vec F S256x64 .bf16 :=
  View.ld x2 (Rect.unit (s := S2048x64) (k0_off2 i) S256x64.size (k0_off2_inb i))

/-- After the body the output's staging buffer holds the payload of its one store, over those rows and the whole
    weight and `Bᵀ` blocks. -/
theorem out_eq (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x64 .bf16) (harg4 : arg4.IsWhole) (arg5 : Memref sig .tc .vmem S64x1024 .f32) (harg5 : arg5.IsWhole) (arg6 : Memref sig .tc .vmem S256x1024 .f32) (harg6 : arg6.IsWhole)
    (x0 : Vec F S2048x2048 .bf16) (x1 : Vec F S1024x2048 .f32) (x2 : Vec F S2048x64 .bf16) (x3 : Vec F S64x1024 .f32) :
    out0_A_4 c i arg2 harg2 arg3 harg3 arg4 harg4 arg5 harg5 arg6 harg6 x0 x1 x2 x3
      = k0_pay1 (xRows i x0) (lowRows i x2) x1 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz]
  simp only [View.readAt_eq_ld, harg2.read_unread, harg3.read_unread, harg4.read_unread, harg5.read_unread,
    View.ld_unit_zero (S := S1024x2048) hz, View.ld_unit_zero (S := S64x1024) hz]

end Cert.KernelIdeal.Hand

end
-- ==== Proof.Payload.lean ====
/-
  The body's arithmetic at one entry of the block.

  The payload is `base + 2·upd` with `base = X · Wᵀ` (both operands contracted on their column axis) and
  `upd = L · Bt` (rows of `L` against columns of `Bt`), each a matrix product into a zero accumulator, the operands
  narrowed to a shorter float format first. Over the extended reals a narrowing is the identity and a product into
  zero is the plain sum over the contracted axis, so at entry `(p, q)` the payload is

      Σ_k X[p,k]·W[q,k] + 2·Σ_r L[p,r]·Bt[r,q].
-/
import proofs.«107733_j48421461295878_2_alg».proof.Proof.Gen.KernelIdeal.Skeleton
import proofs.«107733_j48421461295878_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.LoraSpec

/-! ### `base`: rows of `X` against rows of `W` -/

theorem base_lhs0 (j : S256x1024.Idx) (q : dot_S256x2048_S1024x2048_S256x1024_1_1_0_0_n_n.contr.Idx) :
    (dot_S256x2048_S1024x2048_S256x1024_1_1_0_0_n_n.lhsIdx j q 0).val = (j 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem base_lhs1 (j : S256x1024.Idx) (q : dot_S256x2048_S1024x2048_S256x1024_1_1_0_0_n_n.contr.Idx) :
    (dot_S256x2048_S1024x2048_S256x1024_1_1_0_0_n_n.lhsIdx j q 1).val = (q ⟨0, by decide⟩).val :=
  dot_S256x2048_S1024x2048_S256x1024_1_1_0_0_n_n.lhsIdx_val_of_single rfl j q
theorem base_rhs0 (j : S256x1024.Idx) (q : dot_S256x2048_S1024x2048_S256x1024_1_1_0_0_n_n.contr.Idx) :
    (dot_S256x2048_S1024x2048_S256x1024_1_1_0_0_n_n.rhsIdx j q 0).val = (j 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem base_rhs1 (j : S256x1024.Idx) (q : dot_S256x2048_S1024x2048_S256x1024_1_1_0_0_n_n.contr.Idx) :
    (dot_S256x2048_S1024x2048_S256x1024_1_1_0_0_n_n.rhsIdx j q 1).val = (q ⟨0, by decide⟩).val :=
  dot_S256x2048_S1024x2048_S256x1024_1_1_0_0_n_n.rhsIdx_val_of_single rfl j q

/-- `base` at `(p, q)` is `Σ_k X[p,k]·W[q,k]`. -/
theorem base_apply (l : FVec Ideal S256x2048 .bf16) (r : FVec Ideal S1024x2048 .bf16) (p : Fin 256) (q : Fin 1024) :
    matmul dot_S256x2048_S1024x2048_S256x1024_1_1_0_0_n_n none l r (constant S256x1024 .f32 0x00000000#32) (ix2 p q)
      = ∑ k : Fin 2048, l (ix2 p k) * r (ix2 q k) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact base_lhs0 _ _
    | ⟨1, _⟩ => exact (base_lhs1 _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact base_rhs0 _ _
    | ⟨1, _⟩ => exact (base_rhs1 _ _).trans hk)
  rw [el, er]

/-! ### `upd`: rows of `L` against columns of `Bt` -/

theorem upd_lhs0 (j : S256x1024.Idx) (q : dot_S256x64_S64x1024_S256x1024_1_0_0_1_n_n.contr.Idx) :
    (dot_S256x64_S64x1024_S256x1024_1_0_0_1_n_n.lhsIdx j q 0).val = (j 0).val := by
  unfold DotDims.lhsIdx
  rw [dif_neg (show ¬(0 : Fin S256x64.rank) ∈ dot_S256x64_S64x1024_S256x1024_1_0_0_1_n_n.lhsBatch by decide), dif_pos (show (0 : Fin S256x64.rank) ∈ dot_S256x64_S64x1024_S256x1024_1_0_0_1_n_n.lhsNonContracting by decide)]
  rfl
theorem upd_lhs1 (j : S256x1024.Idx) (q : dot_S256x64_S64x1024_S256x1024_1_0_0_1_n_n.contr.Idx) :
    (dot_S256x64_S64x1024_S256x1024_1_0_0_1_n_n.lhsIdx j q 1).val = (q ⟨0, by decide⟩).val :=
  dot_S256x64_S64x1024_S256x1024_1_0_0_1_n_n.lhsIdx_val_of_single rfl j q
theorem upd_rhs0 (j : S256x1024.Idx) (q : dot_S256x64_S64x1024_S256x1024_1_0_0_1_n_n.contr.Idx) :
    (dot_S256x64_S64x1024_S256x1024_1_0_0_1_n_n.rhsIdx j q 0).val = (q ⟨0, by decide⟩).val :=
  dot_S256x64_S64x1024_S256x1024_1_0_0_1_n_n.rhsIdx_val_of_single rfl j q
theorem upd_rhs1 (j : S256x1024.Idx) (q : dot_S256x64_S64x1024_S256x1024_1_0_0_1_n_n.contr.Idx) :
    (dot_S256x64_S64x1024_S256x1024_1_0_0_1_n_n.rhsIdx j q 1).val = (j 1).val := by
  unfold DotDims.rhsIdx
  rw [dif_neg (show ¬(1 : Fin S64x1024.rank) ∈ dot_S256x64_S64x1024_S256x1024_1_0_0_1_n_n.rhsBatch by decide), dif_pos (show (1 : Fin S64x1024.rank) ∈ dot_S256x64_S64x1024_S256x1024_1_0_0_1_n_n.rhsNonContracting by decide)]
  rfl

/-- `upd` at `(p, q)` is `Σ_r L[p,r]·Bt[r,q]`. -/
theorem upd_apply (l : FVec Ideal S256x64 .bf16) (r : FVec Ideal S64x1024 .bf16) (p : Fin 256) (q : Fin 1024) :
    matmul dot_S256x64_S64x1024_S256x1024_1_0_0_1_n_n none l r (constant S256x1024 .f32 0x00000000#32) (ix2 p q)
      = ∑ k : Fin 64, l (ix2 p k) * r (ix2 k q) := by
  simp only [matmul]
  rw [Ideal.matmul_constant_zero_apply, ← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p q) ((contrEquiv1 dot_S256x64_S64x1024_S256x1024_1_0_0_1_n_n 64 rfl rfl).symm k) = ix2 p k := funext fun a => Fin.ext (by
    match a with
    | ⟨0, _⟩ => exact upd_lhs0 _ _
    | ⟨1, _⟩ => exact (upd_lhs1 _ _).trans hk)
  have er : dot_S256x64_S64x1024_S256x1024_1_0_0_1_n_n.rhsIdx (ix2 p q) ((contrEquiv1 dot_S256x64_S64x1024_S256x1024_1_0_0_1_n_n 64 rfl rfl).symm k) = ix2 k q := funext fun a => Fin.ext (by
    match a with
    | ⟨0, _⟩ => exact (upd_rhs0 _ _).trans hk
    | ⟨1, _⟩ => exact upd_rhs1 _ _)
  rw [el, er]

/-! ### The payload -/

/-- The payload at entry `(p, q)` of the block: `Σ_k X[p,k]·W[q,k] + 2·Σ_r L[p,r]·Bt[r,q]`. -/
theorem pay_apply (X : Vec Ideal S256x2048 .bf16) (L : Vec Ideal S256x64 .bf16) (W : Vec Ideal S1024x2048 .f32)
    (Bt : Vec Ideal S64x1024 .f32) (p : Fin 256) (q : Fin 1024) :
    k0_pay1 (F := Ideal) X L W Bt (ix2 p q)
      = (∑ k : Fin 2048, X (ix2 p k) * W (ix2 q k)) + two * ∑ r : Fin 64, L (ix2 p r) * Bt (ix2 r q) := by
  unfold k0_pay1
  rw [addf_apply, mulf_apply, broadcast_apply, base_apply, upd_apply]
  simp only [shapeCast_self, truncf_apply]
  rfl

end Cert.KernelIdeal.Hand

end
-- ==== Proof.Entry.lean ====
/-
  The four arrays the tiled evaluation starts from, in terms of the arguments.

  Before the tiles are launched the host prepares three arrays: the token matrix `x2[t,c] = x[0,t,c]` (the batch axis
  of extent one dropped, then narrowed to a shorter float format), the projection `low[t,r] = Σ_c x2[t,c]·A[r,c]`
  (narrowed likewise), and `bT[r,v] = B[v,r]`. The weight is passed as it is. Over the extended reals a narrowing is
  the identity, so read at an index these are plain re-indexings of `x`, `A` and `B` and one sum.
-/
import proofs.«107733_j48421461295878_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.StableHlo

namespace Cert.KernelIdeal.Hand

open Cert.KernelIdeal Cert.KernelIdeal.Gen Idealize.ShloMosaic.ValueIdx

variable (m : (ℓ : Loc nD τ sig) → Buf (Elt Ideal) ℓ)

/-- The four arguments on core `c`, as plain functions of an index into the extended reals: the tokens `x`, -/
abbrev argX (c : Dev nD) : S1x2048x2048.Idx → EReal := m ((c : Thread nD τ).loc main_arg0)
/-- the weight `W`, -/
abbrev argW (c : Dev nD) : S65536x2048.Idx → EReal := m ((c : Thread nD τ).loc main_arg1)
/-- the down-projection `A`, -/
abbrev argA (c : Dev nD) : S64x2048.Idx → EReal := m ((c : Thread nD τ).loc main_arg2)
/-- and the up-projection `B`. -/
abbrev argB (c : Dev nD) : S65536x64.Idx → EReal := m ((c : Thread nD τ).loc main_arg3)

/-- The arrays the tiles are launched on, likewise: the token matrix, -/
abbrev entX2 (c : Dev nD) : S2048x2048.Idx → EReal := V m c main_v1
/-- the weight as the tiles find it, -/
abbrev entW (c : Dev nD) : S65536x2048.Idx → EReal := V m c main_arg1
/-- the projection `low`, -/
abbrev entLow (c : Dev nD) : S2048x64.Idx → EReal := V m c main_v3
/-- and `B` transposed. -/
abbrev entBT (c : Dev nD) : S64x65536.Idx → EReal := V m c main_v4

/-! ### The projection's contraction: rows of `x2` against rows of `A` -/

theorem proj_lhs0 (j : S2048x64.Idx) (q : dot_S2048x2048_S64x2048_S2048x64_1_1_0_0_n_n.contr.Idx) :
    (dot_S2048x2048_S64x2048_S2048x64_1_1_0_0_n_n.lhsIdx j q 0).val = (j 0).val := by
  unfold DotDims.lhsIdx
  rw [dif_neg (show ¬(0 : Fin S2048x2048.rank) ∈ dot_S2048x2048_S64x2048_S2048x64_1_1_0_0_n_n.lhsBatch by decide), dif_pos (show (0 : Fin S2048x2048.rank) ∈ dot_S2048x2048_S64x2048_S2048x64_1_1_0_0_n_n.lhsNonContracting by decide)]
  rfl
theorem proj_lhs1 (j : S2048x64.Idx) (q : dot_S2048x2048_S64x2048_S2048x64_1_1_0_0_n_n.contr.Idx) :
    (dot_S2048x2048_S64x2048_S2048x64_1_1_0_0_n_n.lhsIdx j q 1).val = (q ⟨0, by decide⟩).val :=
  dot_S2048x2048_S64x2048_S2048x64_1_1_0_0_n_n.lhsIdx_val_of_single rfl j q
theorem proj_rhs0 (j : S2048x64.Idx) (q : dot_S2048x2048_S64x2048_S2048x64_1_1_0_0_n_n.contr.Idx) :
    (dot_S2048x2048_S64x2048_S2048x64_1_1_0_0_n_n.rhsIdx j q 0).val = (j 1).val := by
  unfold DotDims.rhsIdx
  rw [dif_neg (show ¬(0 : Fin S64x2048.rank) ∈ dot_S2048x2048_S64x2048_S2048x64_1_1_0_0_n_n.rhsBatch by decide), dif_pos (show (0 : Fin S64x2048.rank) ∈ dot_S2048x2048_S64x2048_S2048x64_1_1_0_0_n_n.rhsNonContracting by decide)]
  rfl
theorem proj_rhs1 (j : S2048x64.Idx) (q : dot_S2048x2048_S64x2048_S2048x64_1_1_0_0_n_n.contr.Idx) :
    (dot_S2048x2048_S64x2048_S2048x64_1_1_0_0_n_n.rhsIdx j q 1).val = (q ⟨0, by decide⟩).val :=
  dot_S2048x2048_S64x2048_S2048x64_1_1_0_0_n_n.rhsIdx_val_of_single rfl j q

/-- The projection at `(t, r)` is `Σ_k L[t,k]·R[r,k]`. -/
theorem proj_apply (l : FVec Ideal S2048x2048 .f32) (r : FVec Ideal S64x2048 .f32) (t : Fin 2048) (q : Fin 64) :
    Host.dotGeneral dot_S2048x2048_S64x2048_S2048x64_1_1_0_0_n_n none l r (ix2 t q)
      = ∑ k : Fin 2048, l (ix2 t k) * r (ix2 q k) := by
  simp only [Host.dotGeneral]
  rw [Ideal.dotGeneral_apply, ← Equiv.sum_comp (contrEquiv1 dot_S2048x2048_S64x2048_S2048x64_1_1_0_0_n_n 2048 rfl rfl).symm]
  refine Finset.sum_congr rfl fun k _ => ?_
  have hk := contrEquiv1_symm_val dot_S2048x2048_S64x2048_S2048x64_1_1_0_0_n_n 2048 rfl rfl k
  have el : dot_S2048x2048_S64x2048_S2048x64_1_1_0_0_n_n.lhsIdx (ix2 t q) ((contrEquiv1 dot_S2048x2048_S64x2048_S2048x64_1_1_0_0_n_n 2048 rfl rfl).symm k) = ix2 t k := funext fun a => Fin.ext (by
    match a with
    | ⟨0, _⟩ => exact proj_lhs0 _ _
    | ⟨1, _⟩ => exact (proj_lhs1 _ _).trans hk)
  have er : dot_S2048x2048_S64x2048_S2048x64_1_1_0_0_n_n.rhsIdx (ix2 t q) ((contrEquiv1 dot_S2048x2048_S64x2048_S2048x64_1_1_0_0_n_n 2048 rfl rfl).symm k) = ix2 q k := funext fun a => Fin.ext (by
    match a with
    | ⟨0, _⟩ => exact proj_rhs0 _ _
    | ⟨1, _⟩ => exact (proj_rhs1 _ _).trans hk)
  rw [el, er]

/-! ### The arrays, as the host prepares them -/

/-- The token matrix: `x` without its batch axis. -/
theorem tokens_eq (c : Dev nD) : entX2 m c
    = truncf (F := Ideal) .bf16 (shapeCast S2048x2048 (argX m c) shapeCasts_S1x2048x2048_S2048x2048) bitsLt_bf16_f32 := by
  show StableHlo.after hostOps0 (fun b => m (c, b)) (Proc.devRef .tc main_v1) = _
  after_results
  rfl

/-- The projection: the token matrix contracted with `A` on the feature axis. -/
theorem low_eq (c : Dev nD) : entLow m c
    = truncf (F := Ideal) .bf16 (Host.dotGeneral (F := Ideal) (φ₁ := .f32) (φ₂ := .f32) dot_S2048x2048_S64x2048_S2048x64_1_1_0_0_n_n none
        (shapeCast S2048x2048 (argX m c) shapeCasts_S1x2048x2048_S2048x2048) (argA m c)) bitsLt_bf16_f32 := by
  show StableHlo.after hostOps0 (fun b => m (c, b)) (Proc.devRef .tc main_v3) = _
  after_results
  rfl

/-- `B`, transposed. -/
theorem bT_eq (c : Dev nD) : entBT m c
    = transpose S64x65536 [1, 0] (argB m c) transposes_S65536x64_S64x65536_1_0 := by
  show StableHlo.after hostOps0 (fun b => m (c, b)) (Proc.devRef .tc main_v4) = _
  after_results

/-- The weight is passed as it is. -/
theorem w_eq (c : Dev nD) : entW m c = argW m c := V_main_arg1 m c

/-! ### Read at an index -/

/-- `x2[t,k] = x[0,t,k]`. -/
theorem tokens_apply (c : Dev nD) (t k : Fin 2048) : entX2 m c (ix2 t k) = argX m c (ix3 0 t k) := by
  rw [tokens_eq]
  exact shapeCast_1ab_ab_apply _ _ t k

/-- `low[t,r] = Σ_k x[0,t,k]·A[r,k]`. -/
theorem low_apply (c : Dev nD) (t : Fin 2048) (r : Fin 64) :
    entLow m c (ix2 t r) = ∑ k : Fin 2048, argX m c (ix3 0 t k) * argA m c (ix2 r k) := by
  rw [low_eq]
  refine (proj_apply _ _ t r).trans (Finset.sum_congr rfl fun k _ => ?_)
  rw [shapeCast_1ab_ab_apply]

/-- `bT[r,v] = B[v,r]`. -/
theorem bT_apply (c : Dev nD) (r : Fin 64) (v : Fin 65536) : entBT m c (ix2 r v) = argB m c (ix2 v r) := by
  rw [bT_eq]
  exact transpose_apply _ _ _ _ _ fun b => match b with | ⟨0, _⟩ => rfl | ⟨1, _⟩ => rfl

end Cert.KernelIdeal.Hand

end
-- ==== Proof.Blocks.lean ====
/-
  From one grid point's block to the whole array.

  The grid has 64 × 8 points; point `t` is column-tile `t / 8` and row-tile `t % 8`, and writes the 256 × 1024 block
  of the result whose first row is `256·(t % 8)` and first column `1024·(t / 8)`. At that point the body sees the whole
  token matrix and the whole projection `low` (of which it reads the 256 rows from `256·(t % 8)`), and the 1024 rows
  of the weight and the 1024 columns of `Bᵀ` from `1024·(t / 8)`. So entry `(p, q)` of the block is the blockwise sum
  `loraBlockwise` at `(256·(t % 8) + p, 1024·(t / 8) + q)` of the four whole arrays: each point writes its block of
  ONE function of those arrays, the 512 blocks tile the 2048 × 65536 result, and the result is that function.
-/
import proofs.«107733_j48421461295878_2_alg».proof.Proof.Piece
import proofs.«107733_j48421461295878_2_alg».proof.Proof.Payload
import proofs.«107733_j48421461295878_2_alg».proof.Proof.Entry

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LoraSpec

variable (m : (ℓ : Loc nD τ sig) → Buf (Elt Ideal) ℓ) (ρ : Dev nD → PrngReg)

/-! ### One point, over plain arrays -/

/-- Entry `y` of the block a point computes is `loraBlockwise` at the entry's place `g` in the result, when the
    point's rows start at `r0` and its columns at `c0`: the loaded token and `low` arrays are the whole arrays, the
    loaded weight block its rows from `c0`, the loaded `Bᵀ` block its columns from `c0`. -/
theorem point_eq (i : grid0.Coords) (r0 c0 : Nat)
    (ho10 : k0_off1 i 0 = r0) (ho11 : k0_off1 i 1 = 0) (ho20 : k0_off2 i 0 = r0) (ho21 : k0_off2 i 1 = 0)
    (A0 : S2048x2048.Idx → EReal) (A1 : S65536x2048.Idx → EReal) (A2 : S2048x64.Idx → EReal) (A3 : S64x65536.Idx → EReal)
    (x0 : Vec Ideal S2048x2048 .bf16) (x1 : Vec Ideal S1024x2048 .f32) (x2 : Vec Ideal S2048x64 .bf16) (x3 : Vec Ideal S64x1024 .f32)
    (y : S256x1024.Idx) (g : S2048x65536.Idx)
    (h0 : ∀ j, x0 j = A0 j) (h2 : ∀ j, x2 j = A2 j)
    (h1 : ∀ (j : S1024x2048.Idx) (k : S65536x2048.Idx), (k 0).val = c0 + (j 0).val → (k 1).val = (j 1).val → x1 j = A1 k)
    (h3 : ∀ (j : S64x1024.Idx) (k : S64x65536.Idx), (k 0).val = (j 0).val → (k 1).val = c0 + (j 1).val → x3 j = A3 k)
    (hg0 : (g 0).val = r0 + (y 0).val) (hg1 : (g 1).val = c0 + (y 1).val) :
    k0_pay1 (F := Ideal) (xRows i x0) (lowRows i x2) x1 x3 y = loraBlockwise A0 A1 A2 A3 g := by
  obtain ⟨p, q, rfl⟩ : ∃ (p : Fin 256) (q : Fin 1024), y = ix2 p q := ⟨y 0, y 1, eq_ix2 y⟩
  have hg0' : (g 0).val = r0 + p.val := hg0
  have hg1' : (g 1).val = c0 + q.val := hg1
  rw [pay_apply]
  unfold loraBlockwise
  have e0 : ∀ k : Fin 2048, xRows i x0 (ix2 p k) = A0 (ix2 (g 0) k) := fun k => by
    show x0 ((Rect.unit (s := S2048x2048) (k0_off1 i) S256x2048.size (k0_off1_inb i)).idx (ix2 p k)) = _
    rw [h0]
    refine congrArg A0 (funext fun a => Fin.ext ?_)
    match a with
    | ⟨0, _⟩ => show k0_off1 i 0 + 1 * p.val = (g 0).val; rw [ho10]; omega
    | ⟨1, _⟩ => show k0_off1 i 1 + 1 * k.val = k.val; rw [ho11]; omega
  have e2 : ∀ r : Fin 64, lowRows i x2 (ix2 p r) = A2 (ix2 (g 0) r) := fun r => by
    show x2 ((Rect.unit (s := S2048x64) (k0_off2 i) S256x64.size (k0_off2_inb i)).idx (ix2 p r)) = _
    rw [h2]
    refine congrArg A2 (funext fun a => Fin.ext ?_)
    match a with
    | ⟨0, _⟩ => show k0_off2 i 0 + 1 * p.val = (g 0).val; rw [ho20]; omega
    | ⟨1, _⟩ => show k0_off2 i 1 + 1 * r.val = r.val; rw [ho21]; omega
  have e1 : ∀ k : Fin 2048, x1 (ix2 q k) = A1 (ix2 (g 1) k) := fun k => h1 _ _ hg1' rfl
  have e3 : ∀ r : Fin 64, x3 (ix2 r q) = A3 (ix2 r (g 1)) := fun r => h3 _ _ rfl hg1'
  simp only [e0, e1, e2, e3]

/-! ### The index maps, decided over the 512 points -/

/-- At point `t`: the result's block is `(t % 8, t / 8)`; the token matrix and `low` are always block `(0, 0)` (the
    whole arrays); the weight's block is `(t / 8, 0)` and `Bᵀ`'s `(0, t / 8)`; and the body's row offset into the token
    matrix and into `low` is `256·(t % 8)`, its column offset `0`. -/
theorem idx_facts : ∀ t : Fin cfg0.N,
    win0_4.index t (0 : Fin 2) = t.val % 8 ∧ win0_4.index t (1 : Fin 2) = t.val / 8
    ∧ win0_0.index t (0 : Fin 2) = 0 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val / 8
    ∧ k0_off1 (grid0.coords t) 0 = 256 * (t.val % 8) ∧ k0_off1 (grid0.coords t) 1 = 0
    ∧ k0_off2 (grid0.coords t) 0 = 256 * (t.val % 8) ∧ k0_off2 (grid0.coords t) 1 = 0 :=
  (by decide +kernel : ∀ t : Fin grid0.N, _)

/-! ### The staged blocks, read at an index -/

/-- The token matrix is staged whole: its block at any point is the array. -/
theorem iblk0_apply (c : Dev nD) (t : Fin cfg0.N) (x : S2048x2048.Idx) :
    (iblk m c 0 t : Vec Ideal S2048x2048 .bf16) x = entX2 m c x := by
  obtain ⟨-, -, e00, e01, -⟩ := idx_facts t
  unfold iblk
  rw [View.read_apply]
  show V m c main_v1 _ = V m c main_v1 _
  refine congrArg (V m c main_v1) (funext fun a => Fin.ext ?_)
  match a with
  | ⟨0, _⟩ => show win0_0.index t (0 : Fin 2) * 2048 + 1 * (x 0).val = (x 0).val; rw [e00]; omega
  | ⟨1, _⟩ => show win0_0.index t (1 : Fin 2) * 2048 + 1 * (x 1).val = (x 1).val; rw [e01]; omega

/-- So is `low`. -/
theorem iblk2_apply (c : Dev nD) (t : Fin cfg0.N) (x : S2048x64.Idx) :
    (iblk m c 2 t : Vec Ideal S2048x64 .bf16) x = entLow m c x := by
  obtain ⟨-, -, -, -, -, -, e20, e21, -⟩ := idx_facts t
  unfold iblk
  rw [View.read_apply]
  show V m c main_v3 _ = V m c main_v3 _
  refine congrArg (V m c main_v3) (funext fun a => Fin.ext ?_)
  match a with
  | ⟨0, _⟩ => show win0_2.index t (0 : Fin 2) * 2048 + 1 * (x 0).val = (x 0).val; rw [e20]; omega
  | ⟨1, _⟩ => show win0_2.index t (1 : Fin 2) * 64 + 1 * (x 1).val = (x 1).val; rw [e21]; omega

/-- The weight's block at point `t` is its 1024 rows from `1024·(t / 8)`. -/
theorem iblk1_apply (c : Dev nD) (t : Fin cfg0.N) (x : S1024x2048.Idx) (k : S65536x2048.Idx)
    (hk0 : (k 0).val = 1024 * (t.val / 8) + (x 0).val) (hk1 : (k 1).val = (x 1).val) :
    (iblk m c 1 t : Vec Ideal S1024x2048 .f32) x = entW m c k := by
  obtain ⟨-, -, -, -, e10, e11, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * (x 0).val = (k 0).val; rw [e10, hk0]; omega
  | ⟨1, _⟩ => show win0_1.index t (1 : Fin 2) * 2048 + 1 * (x 1).val = (k 1).val; rw [e11, hk1]; omega

/-- `Bᵀ`'s block at point `t` is its 1024 columns from `1024·(t / 8)`. -/
theorem iblk3_apply (c : Dev nD) (t : Fin cfg0.N) (x : S64x1024.Idx) (k : S64x65536.Idx)
    (hk0 : (k 0).val = (x 0).val) (hk1 : (k 1).val = 1024 * (t.val / 8) + (x 1).val) :
    (iblk m c 3 t : Vec Ideal S64x1024 .f32) x = entBT m c k := by
  obtain ⟨-, -, -, -, -, -, -, -, e30, e31, -⟩ := idx_facts t
  unfold iblk
  rw [View.read_apply]
  show V m c main_v4 _ = V m c main_v4 _
  refine congrArg (V m c main_v4) (funext fun a => Fin.ext ?_)
  match a with
  | ⟨0, _⟩ => show win0_3.index t (0 : Fin 2) * 64 + 1 * (x 0).val = (k 0).val; rw [e30, hk0]; omega
  | ⟨1, _⟩ => show win0_3.index t (1 : Fin 2) * 1024 + 1 * (x 1).val = (k 1).val; rw [e31, hk1]; omega

/-! ### What a point writes back, the cover, the array -/

/-- The tiled evaluation's result as ONE function of the four arrays the tiles are launched on. -/
abbrev regionOut (c : Dev nD) : Buf (Elt Ideal) ((c : Thread nD τ).loc main_v5) :=
  loraBlockwise (entX2 m c) (entW m c) (entLow m c) (entBT m c)

/-- What point `t` writes back is its block of that function. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold outsAt0
  rw [out_eq]
  obtain ⟨e40, e41, -, -, -, -, -, -, -, -, o10, o11, o20, o21⟩ := idx_facts t
  funext y
  rw [View.read_apply]
  refine point_eq (grid0.coords t) (256 * (t.val % 8)) (1024 * (t.val / 8)) o10 o11 o20 o21
    (entX2 m c) (entW m c) (entLow m c) (entBT m c) (iblk m c 0 t) (iblk m c 1 t) (iblk m c 2 t) (iblk m c 3 t)
    y (((cfg0.win 4).blk t).view.emb y) (iblk0_apply m c t) (iblk2_apply m c t)
    (fun j k hk0 hk1 => iblk1_apply m c t j k hk0 hk1) (fun j k hk0 hk1 => iblk3_apply m c t j k hk0 hk1) ?_ ?_
  · show win0_4.index t (0 : Fin 2) * 256 + 1 * (y 0).val = 256 * (t.val % 8) + (y 0).val
    rw [e40]; omega
  · show win0_4.index t (1 : Fin 2) * 1024 + 1 * (y 1).val = 1024 * (t.val / 8) + (y 1).val
    rw [e41]; omega

/-- An index of the result is in point `t`'s block iff each coordinate is in the block's range on its axis. -/
theorem mem_blk (t : Fin cfg0.N) (i : S2048x65536.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v5).slice (win0_4.rect t)).set ↔ _
  rw [View.set_slice_whole, Rect.mem_set_unit]
  exact Iff.rfl

/-- Every index `(r, v)` of the result is in the block of the point with column-tile `v / 1024` and row-tile `r / 256`. -/
theorem cover (i : S2048x65536.Idx) :
    ∃ t : Fin cfg0.N, (cfg0.win 4).flush t = true ∧ i ∈ ((cfg0.win 4).blk t).view.set := by
  have hi0 : (i 0).val < 2048 := (i 0).isLt
  have hi1 : (i 1).val < 65536 := (i 1).isLt
  have hN : cfg0.N = 512 := N_0
  obtain ⟨t, ht⟩ : ∃ t : Fin cfg0.N, t.val = (i 1).val / 1024 * 8 + (i 0).val / 256 :=
    ⟨⟨(i 1).val / 1024 * 8 + (i 0).val / 256, by rw [hN]; omega⟩, rfl⟩
  obtain ⟨e40, e41, -⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 1024 ≤ (i 1).val ∧ (i 1).val < win0_4.index t (1 : Fin 2) * 1024 + 1024
    rw [e41, ht]; omega

/-- So after the last point the result array holds that function. -/
theorem region_final (c : Dev nD) : (dats m 0 c).arrAt 4 cfg0.N = regionOut m c :=
  (dats m 0 c).arrAt_eq_of_cover 4 (regionOut m c) (fun t _ => flushed_eq m c t) cover

end Cert.KernelIdeal.Hand

end
-- ==== Proof.KernelValue.lean ====
/-
  The tiled program's result.

  After the last tile the 2048 × 65536 array holds the blockwise sum of the four launched arrays; the program then
  gives it a leading batch axis of extent one. Reading that reshape at `(0, t, v)`, and the launched arrays in
  terms of the arguments (the token matrix is `x` without its batch axis, `low` is `x·Aᵀ`, `bT` is `B` transposed, the
  weight is passed as it is), the result is `lora` of the four arguments.
-/
import proofs.«107733_j48421461295878_2_alg».proof.Proof.Blocks
import Idealize.ShloMosaic.Lib.StableHlo.Run

noncomputable section

open scoped BigOperators
open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx Cert.LoraSpec

variable (m : (ℓ : Loc nD τ sig) → Buf (Elt Ideal) ℓ) (ρ : Dev nD → PrngReg)

/-- The program's result, as a function of its four arguments on core `c`. -/
abbrev result (c : Dev nD) : Buf (Elt Ideal) ((c.tc : Thread nD τ).loc main_v6) :=
  lora (argX m c) (argW m c) (argA m c) (argB m c)

/-- What the host line after the tiles leaves in the result buffer is `lora` of the arguments. -/
theorem result_eq (c : Dev nD) :
    Pipeline.afterTail₀ cfgs (dats m) 0 (V0 m) [hostOps1] c main_v6 = result m c := by
  have hw : Pipeline.withArrays (cfgs 0).spec c (V0 m c) (fun w => (dats m 0 c).arrAt w (cfgs 0).N) (Proc.devRef .tc main_v5)
      = regionOut m c :=
    (Pipeline.withArrays_arr spec0 launch0.win.arr_inj c _ _ 4).trans (region_final m c)
  unfold Pipeline.afterTail₀
  show StableHlo.after hostOps1 _ (Proc.devRef .tc main_v6) = _
  after_results
  show shapeCast S1x2048x65536 (Pipeline.withArrays (cfgs 0).spec c (V0 m c) (fun w => (dats m 0 c).arrAt w (cfgs 0).N) (Proc.devRef .tc main_v5))
    shapeCasts_S2048x65536_S1x2048x65536 = _
  rw [hw]
  funext i
  obtain ⟨u, t, v, rfl⟩ : ∃ (u : Fin 1) (t : Fin 2048) (v : Fin 65536), i = ix3 u t v := ⟨i 0, i 1, i 2, eq_ix3 i⟩
  obtain rfl : u = 0 := Subsingleton.elim _ _
  rw [shapeCast_ab_1ab_apply]
  show loraBlockwise (entX2 m c) (entW m c) (entLow m c) (entBT m c) (ix2 t v) = lora (argX m c) (argW m c) (argA m c) (argB m c) (ix3 0 t v)
  rw [w_eq]
  exact loraBlockwise_eq (argX m c) (argW m c) (argA m c) (argB m c) (entX2 m c) (entLow m c) (entBT m c)
    (tokens_apply m c) (low_apply m c) (bT_apply m c) t v

/-- Every weakly fair execution of the tiled program terminates with its result at `lora` of the arguments and the
    arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  A low-rank-adapted linear layer, tiled, against its plain definition.

  Both programs take tokens `x : [1, 2048, 2048]`, a weight `W : [65536, 2048]`, a down-projection `A : [64, 2048]`
  and an up-projection `B : [65536, 64]`, and return `y : [1, 2048, 65536]`,

      y[0, t, v] = Σ_c x[0,t,c]·W[v,c] + 2·Σ_r (Σ_c x[0,t,c]·A[r,c])·B[v,r]        (`Cert.LoraSpec.lora`).

  The reference computes this with three contractions, a product with the constant `2` and a sum. The tiled program
  first forms, on the host, the token matrix without its batch axis, the rank-64 projection `low = x·Aᵀ` and `Bᵀ`; a
  64 × 8 grid of tiles then each computes a 256 × 1024 block `X·Wᵀ + 2·(L·Bt)` from 256 rows of the token matrix and
  of `low` and 1024 rows of `W` and columns of `Bᵀ`; and the batch axis is put back.

  Over the extended reals, where a change of float format is the identity and a matrix product into a zero
  accumulator is the plain sum over the contracted axis, the tiled program's result is the SAME expression as the
  reference's, term by term: the same two sums in the same nesting, the same constant `2` on the same side of the
  product, the same order of the final sum. No law of arithmetic is needed to join them — in particular none that
  would need the inputs to be finite — only re-indexing: a tile's block entry `(p, q)` at grid point `t` is the
  result's entry `(256·(t % 8) + p, 1024·(t / 8) + q)`, and the 512 blocks tile the result.

  The modules: `Spec` (the function, and its blockwise form), `RefSpec` (the reference computes it), `Payload` (a
  tile's arithmetic at one entry), `Piece` (what a tile leaves in its output buffer), `Entry` (the arrays the tiles
  start from, in terms of the arguments), `Blocks` (from a tile's block to the whole array), `KernelValue` (the
  tiled program's run with its result named). Each program runs to completion without a fault and leaves its
  arguments unchanged; the tiled program as printed and its reading over the extended reals are the same text (no
  operation was rewritten between them).
-/
import proofs.«107733_j48421461295878_2_alg».proof.Defs
import proofs.«107733_j48421461295878_2_alg».proof.Proof.Gen.Kernel
import proofs.«107733_j48421461295878_2_alg».proof.Proof.Gen.Kernel.Skeleton
import proofs.«107733_j48421461295878_2_alg».proof.Proof.Gen.Kernel.Launch
import proofs.«107733_j48421461295878_2_alg».proof.Proof.Gen.Kernel.Points
import proofs.«107733_j48421461295878_2_alg».proof.Proof.Gen.Kernel.Frame
import proofs.«107733_j48421461295878_2_alg».proof.Proof.Gen.KernelIdeal
import proofs.«107733_j48421461295878_2_alg».proof.Proof.Gen.KernelIdeal.Skeleton
import proofs.«107733_j48421461295878_2_alg».proof.Proof.Gen.KernelIdeal.Launch
import proofs.«107733_j48421461295878_2_alg».proof.Proof.Gen.KernelIdeal.Points
import proofs.«107733_j48421461295878_2_alg».proof.Proof.Gen.KernelIdeal.Frame
import proofs.«107733_j48421461295878_2_alg».proof.Proof.Gen.ReferenceIdeal
import proofs.«107733_j48421461295878_2_alg».proof.Proof.Gen.Pre_finite_inputs
import proofs.«107733_j48421461295878_2_alg».proof.Proof.Gen.ReferenceIdeal.Run
import proofs.«107733_j48421461295878_2_alg».proof.Proof.Gen.ReferenceIdeal.Read
import proofs.«107733_j48421461295878_2_alg».proof.Proof.RefSpec
import proofs.«107733_j48421461295878_2_alg».proof.Proof.KernelValue
import Idealize.ShloMosaic.Adequacy
import Idealize.ShloMosaic.Init

noncomputable section

namespace Cert.Proof

open Idealize.ShloMosaic Idealize.SL.Sem

/-- The tiled program as printed runs to completion and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the tiled program and its reading over the extended reals. -/
theorem preserves : Cert.preserves_Kernel_KernelIdeal := trivial

/-- From memories that agree on the four arguments, both programs end with `lora` of those arguments in their
    result: the tiled program by `KernelValue.run`, the reference by its run and `RefSpec.ref_eq`. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
